-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S256x40 .f32) (main_arg7 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x40 .f32 := Host.absf main_arg6
  let main_cst_6 : FVec F S_ .f32 := constant S_ .f32 0x7F800000#32
  let main_v20 : FVec F S256x40 .f32 := broadcastInDim S256x40 ![] bcast_S_S256x40 main_cst_6
  let main_v21 : IVec S256x40 1 := cmpf .olt main_v19 main_v20
  let main_c_7 : IVec S_ 1 := constantI S_ 1 1#1
  let main_v22 : IVec S_ 1 := (fun x v => Host.reduce IntOp.andi x v reducesTo_S256x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x512 .f32) (main_arg1 : IVec S800000 32) (main_arg2 : IVec S800000 32) (main_arg3 : FVec F S800000 .f32) (main_arg4 : FVec F S512x256 .f32) (main_arg5 : FVec F S256 .f32) (main_arg6 : FVec F S256x40 .f32) (main_arg7 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S50000x256 : Shape := ⟨2, ![50000, 256]⟩
abbrev S2000x512 : Shape := ⟨2, ![2000, 512]⟩
abbrev S2000x256 : Shape := ⟨2, ![2000, 256]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩
abbrev S50000x40 : Shape := ⟨2, ![50000, 40]⟩
abbrev S2000x40 : Shape := ⟨2, ![2000, 40]⟩
abbrev S1x40 : Shape := ⟨2, ![1, 40]⟩
abbrev S800000x40 : Shape := ⟨2, ![800000, 40]⟩
abbrev S50000 : Shape := ⟨1, ![50000]⟩
abbrev S50000x1 : Shape := ⟨2, ![50000, 1]⟩

abbrev nBuf : Space → Nat
  | .hbm => 63
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256, .f32⟩
  | .hbm, ⟨6, _⟩ => ⟨S256x40, .f32⟩
  | .hbm, ⟨7, _⟩ => ⟨S40, .f32⟩
  | .hbm, ⟨8, _⟩ => ⟨S50000x256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x1, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S50000x256, .f32⟩
  | .hbm, ⟨27, _⟩ => ⟨S50000x256, .f32⟩
  | .hbm, ⟨28, _⟩ => ⟨S50000x40, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x40, .f32⟩
  | .hbm, ⟨38, _⟩ => ⟨S800000x1, .f32⟩
  | .hbm, ⟨39, _⟩ => ⟨S800000x40, .f32⟩
  | .hbm, ⟨40, _⟩ => ⟨S800000x40, .f32⟩
  | .hbm, ⟨41, _⟩ => ⟨S_, .f32⟩
  | .hbm, ⟨42, _⟩ => ⟨S50000x40, .f32⟩
  | .hbm, ⟨43, _⟩ => ⟨S800000x1, .i32⟩
  | .hbm, ⟨44, _⟩ => ⟨S50000x40, .f32⟩
  | .hbm, ⟨45, _⟩ => ⟨S_, .f32⟩
  | .hbm, ⟨46, _⟩ => ⟨S50000x40, .f32⟩
  | .hbm, ⟨47, _⟩ => ⟨S50000x40, .f32⟩
  | .hbm, ⟨48, _⟩ => ⟨S_, .f32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S50000x40, .f32⟩
  | .hbm, ⟨55, _⟩ => ⟨S50000x40, .f32⟩
  | .hbm, ⟨56, _⟩ => ⟨S50000x40, .f32⟩
  | .hbm, ⟨57, _⟩ => ⟨S_, .f32⟩
  | .hbm, ⟨58, _⟩ => ⟨S50000, .f32⟩
  | .hbm, ⟨59, _⟩ => ⟨S50000x1, .f32⟩
  | .hbm, ⟨60, _⟩ => ⟨S50000x1, .f32⟩
  | .hbm, ⟨61, _⟩ => ⟨S50000x40, .f32⟩
  | .hbm, ⟨62, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x40, .f32⟩
  | .local _ .vmem, ⟨9, _⟩ => ⟨S40, .f32⟩
  | .local _ .vmem, ⟨10, _⟩ => ⟨S2000x40, .f32⟩
  | .local _ .vmem, ⟨11, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩
abbrev main_call2_cst : Ref sig .tc := ⟨.hbm, 48, rfl⟩
abbrev main_call2_v0 : Ref sig .tc := ⟨.hbm, 49, rfl⟩
abbrev main_call2_cst_0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_cst_1 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_v30 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  inb_S256x40_S256x40_0_0 : ∀ a, (![0, 0] : Fin 2 → Nat) a + S256x40.size a ≤ S256x40.size a
  h_S256x40 : 0 < S256x40.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x40_S2000x40_1_0_0_1_n_n_wf : DotDims.WF S2000x256 S256x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x40.size a ≤ S256x40.size a
  hwx1_1 : ∀ i : grid1.Coords, EltTy.bits .f32 = 32 ∨ (Rect.block (s := S256x40) S256x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40.size a ≤ S40.size a
  hwx1_2 : ∀ i : grid1.Coords, EltTy.bits .f32 = 32 ∨ (Rect.block (s := S40) S40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S50000x40.size a
  hwx1_3 : ∀ i : grid1.Coords, EltTy.bits .f32 = 32 ∨ (Rect.block (s := S50000x40) S2000x40.size (cc1_transform_3 i) (hinb1_3 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S50000x256 : Shape := ⟨2, ![50000, 256]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩
abbrev S50000x40 : Shape := ⟨2, ![50000, 40]⟩
abbrev S1x40 : Shape := ⟨2, ![1, 40]⟩
abbrev S800000x40 : Shape := ⟨2, ![800000, 40]⟩
abbrev S50000 : Shape := ⟨1, ![50000]⟩
abbrev S50000x1 : Shape := ⟨2, ![50000, 1]⟩

abbrev nBuf : Space → Nat
  | .hbm => 69
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256, .f32⟩
  | .hbm, ⟨6, _⟩ => ⟨S256x40, .f32⟩
  | .hbm, ⟨7, _⟩ => ⟨S40, .f32⟩
  | .hbm, ⟨8, _⟩ => ⟨S50000x256, .f32⟩
  | .hbm, ⟨9, _⟩ => ⟨S1x256, .f32⟩
  | .hbm, ⟨10, _⟩ => ⟨S50000x256, .f32⟩
  | .hbm, ⟨11, _⟩ => ⟨S50000x256, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S800000x1, .f32⟩
  | .hbm, ⟨22, _⟩ => ⟨S800000x256, .f32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | .hbm, ⟨31, _⟩ => ⟨S50000x40, .f32⟩
  | .hbm, ⟨32, _⟩ => ⟨S1x40, .f32⟩
  | .hbm, ⟨33, _⟩ => ⟨S50000x40, .f32⟩
  | .hbm, ⟨34, _⟩ => ⟨S50000x40, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x40, .f32⟩
  | .hbm, ⟨44, _⟩ => ⟨S800000x1, .f32⟩
  | .hbm, ⟨45, _⟩ => ⟨S800000x40, .f32⟩
  | .hbm, ⟨46, _⟩ => ⟨S800000x40, .f32⟩
  | .hbm, ⟨47, _⟩ => ⟨S_, .f32⟩
  | .hbm, ⟨48, _⟩ => ⟨S50000x40, .f32⟩
  | .hbm, ⟨49, _⟩ => ⟨S800000x1, .i32⟩
  | .hbm, ⟨50, _⟩ => ⟨S50000x40, .f32⟩
  | .hbm, ⟨51, _⟩ => ⟨S_, .f32⟩
  | .hbm, ⟨52, _⟩ => ⟨S50000x40, .f32⟩
  | .hbm, ⟨53, _⟩ => ⟨S50000x40, .f32⟩
  | .hbm, ⟨54, _⟩ => ⟨S_, .f32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x40, .f32⟩
  | .hbm, ⟨61, _⟩ => ⟨S50000x40, .f32⟩
  | .hbm, ⟨62, _⟩ => ⟨S50000x40, .f32⟩
  | .hbm, ⟨63, _⟩ => ⟨S_, .f32⟩
  | .hbm, ⟨64, _⟩ => ⟨S50000, .f32⟩
  | .hbm, ⟨65, _⟩ => ⟨S50000x1, .f32⟩
  | .hbm, ⟨66, _⟩ => ⟨S50000x1, .f32⟩
  | .hbm, ⟨67, _⟩ => ⟨S50000x40, .f32⟩
  | .hbm, ⟨68, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_v35 : Ref sig .tc := ⟨.hbm, 53, rfl⟩
abbrev main_call2_cst : Ref sig .tc := ⟨.hbm, 54, rfl⟩
abbrev main_call2_v0 : Ref sig .tc := ⟨.hbm, 55, rfl⟩
abbrev main_call2_cst_0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_cst_1 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_v36 : Ref sig .tc := ⟨.hbm, 68, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x40_S50000x40_1_0_0_1_n_n_wf : DotDims.WF S50000x256 S256x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.Spec.lean ====
/-
  The function both programs compute, stated once over the extended reals.

  A graph-convolution layer is a dense affine map followed by a weighted neighbourhood sum and a rectifier:
  `support = X · W + b` (`affine`: entry `(r, c)` is `∑ k, X (r, k) · W (k, c) + b c`), then for every edge
  `e` the row `support[src e]` scaled by `w e` is added into row `dst e` of a zero array, and the result is
  clipped below at zero (`aggregate`; a negative source index is first shifted up by the number of nodes, as
  indexing from the end asks). Two such layers are followed by a row-wise log-softmax (`logSoftmaxRows`: subtract
  the row maximum, then subtract the logarithm of the row's sum of exponentials). `network` composes them.

  Only the affine map is opened index by index; the neighbourhood sum, the rectifier and the log-softmax are the
  same operations in both programs and are carried as they are. The side conditions the operations take (which
  shape broadcasts into which, the gather's and the scatter's dimension numbers) are arguments: each program supplies
  its own witnesses, and since they are propositions, or records of the same literal fields, the two instances are
  one function.
-/
import Idealize.ShloMosaic.PureOps.Ideal
import Idealize.ShloMosaic.Lib.ValueIdx

noncomputable section

namespace Cert.Gcn

open Idealize.ShloMosaic Idealize.ShloMosaic.ValueIdx
open scoped BigOperators

/-- The scalar shape, the edge list's shapes and the node list's shapes. -/
abbrev Sc : Shape := ⟨0, ![]⟩
abbrev SE : Shape := ⟨1, ![800000]⟩
abbrev SE1 : Shape := ⟨2, ![800000, 1]⟩
abbrev SN : Shape := ⟨1, ![50000]⟩
abbrev SN1 : Shape := ⟨2, ![50000, 1]⟩
/-- One row of `D` features per node, and per edge. -/
abbrev SND (D : Nat) : Shape := ⟨2, ![50000, D]⟩
abbrev SED (D : Nat) : Shape := ⟨2, ![800000, D]⟩

/-! ## The dense affine map, index by index -/

/-- `X · W + b`: entry `(r, c)` is the sum over `k` of `X (r, k) · W (k, c)`, plus `b c`. -/
def affine {M K N : Nat} (X : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, X (ix2 (i 0) k) * W (ix2 k (i 1))) + b (ix1 (i 1))

variable {F : FTy → Type} [FloatOps F]

/-! ## The neighbourhood sum and the rectifier -/

/-- What the operations of one aggregation ask of the shapes. -/
structure AggFacts (D : Nat) : Prop where
  c_E : Sc.BroadcastsInDim SE (![] : Fin 0 → Fin SE.rank)
  E_E1 : SE.BroadcastsInDim SE1 (![0] : Fin 1 → Fin SE1.rank)
  E1_ED : SE1.BroadcastsInDim (SED D) (![0, 1] : Fin 2 → Fin (SED D).rank)
  c_ND : Sc.BroadcastsInDim (SND D) (![] : Fin 0 → Fin (SND D).rank)

/-- Row `dst e` of the result collects `w e · h[src e]` over the edges `e`, from zero; then the rectifier. -/
def aggregate {D : Nat} (hf : AggFacts D) (g : GatherDims (SND D) SE1 (SED D)) (sc : ScatterDims (SND D) SE1 (SED D))
    (h : FVec F (SND D) .f32) (src dst : IVec SE 32) (w : FVec F SE .f32) : FVec F (SND D) .f32 :=
  maximumf
    (Host.scatterAdd sc (broadcastInDim (SND D) ![] hf.c_ND (constant Sc .f32 0x00000000#32))
      (broadcastInDim SE1 ![0] hf.E_E1 dst)
      (mulf
        (Host.gather g h (broadcastInDim SE1 ![0] hf.E_E1
          (select (cmpi .slt src (broadcastInDim SE ![] hf.c_E (constantI Sc 32 0#32)))
            (addi src (broadcastInDim SE ![] hf.c_E (constantI Sc 32 50000#32))) src)))
        (broadcastInDim (SED D) ![0, 1] hf.E1_ED (broadcastInDim SE1 ![0] hf.E_E1 w))))
    (broadcastInDim (SND D) ![] hf.c_ND (constant Sc .f32 0x00000000#32))

/-! ## The row-wise log-softmax -/

/-- What the operations of the log-softmax ask of the shapes. -/
structure LsmFacts : Prop where
  red : (SND 40).ReducesTo ([1] : List (Fin (SND 40).rank)) SN
  hc : 0 < Sc.numel
  c_N : Sc.BroadcastsInDim SN (![] : Fin 0 → Fin SN.rank)
  N_N1 : SN.BroadcastsInDim SN1 (![0] : Fin 1 → Fin SN1.rank)
  N1_ND : SN1.BroadcastsInDim (SND 40) (![0, 1] : Fin 2 → Fin (SND 40).rank)

/-- A row minus its maximum (the maximum taken from minus infinity). -/
def shiftRows (hf : LsmFacts) (h : FVec F (SND 40) .f32) : FVec F (SND 40) .f32 :=
  subf h (broadcastInDim (SND 40) ![0, 1] hf.N1_ND (broadcastInDim SN1 ![0] hf.N_N1
    (maximumf (broadcastInDim SN ![] hf.c_N (constant Sc .f32 0xFF800000#32))
      (Host.reduce FloatOps.maximumf h (constant Sc .f32 0xFF800000#32) hf.red hf.hc))))

/-- The shifted row minus the logarithm of its sum of exponentials. -/
def logSoftmaxRows (hf : LsmFacts) (h : FVec F (SND 40) .f32) : FVec F (SND 40) .f32 :=
  subf (shiftRows hf h) (broadcastInDim (SND 40) ![0, 1] hf.N1_ND (Host.log (broadcastInDim SN1 ![0] hf.N_N1
    (Host.reduceAdd (Host.exp (shiftRows hf h)) (constant Sc .f32 0x00000000#32) hf.red hf.hc))))

/-! ## The two-layer network -/

/-- Two layers and the log-softmax, at the extended reals. -/
def network (hf1 : AggFacts 256) (g1 : GatherDims (SND 256) SE1 (SED 256)) (sc1 : ScatterDims (SND 256) SE1 (SED 256))
    (hf2 : AggFacts 40) (g2 : GatherDims (SND 40) SE1 (SED 40)) (sc2 : ScatterDims (SND 40) SE1 (SED 40)) (hl : LsmFacts)
    (x : (⟨2, ![50000, 512]⟩ : Shape).Idx → EReal) (src dst : IVec SE 32) (w : SE.Idx → EReal)
    (W1 : (⟨2, ![512, 256]⟩ : Shape).Idx → EReal) (b1 : (⟨1, ![256]⟩ : Shape).Idx → EReal)
    (W2 : (⟨2, ![256, 40]⟩ : Shape).Idx → EReal) (b2 : (⟨1, ![40]⟩ : Shape).Idx → EReal) : (SND 40).Idx → EReal :=
  logSoftmaxRows (F := Ideal) hl
    (aggregate (F := Ideal) hf2 g2 sc2
      (affine (aggregate (F := Ideal) hf1 g1 sc1 (affine x W1 b1) src dst w) W2 b2) src dst w)

end Cert.Gcn

end
-- ==== Proof.LibRowBlockDot.lean ====
/-
  A matrix product taken a block of rows at a time.

  For a two-axis contraction `[M, K] × [K, N] → [M, N]` whose dimension numbers contract the left operand's second
  axis with the right operand's first and keep the other two in order (`PlainDot`), the sum over the contraction
  index at output `(r, c)` is `∑ k : Fin K, x (r, k) · w (k, c)` (`sum_contr_eq`). Hence the product of a block
  of rows of `X` with `W`, read at a row of the block, is the whole product `X · W` read at that row of the array
  (`rowblock_sum`): the two sums have the same terms. Only the commutative monoid of the extended reals' addition
  is used; nothing here needs a finite entry.
-/
import Idealize.ShloMosaic.Lib.ValueIdx
import Idealize.ShloMosaic.PureOps.Ideal.Laws

namespace Idealize.ShloMosaic.RowBlockDot

open Idealize.ShloMosaic Idealize.ShloMosaic.ValueIdx

/-- The dimension numbers of a plain matrix product: one contracted axis of extent `K`; the left operand's index at
    output `j` and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- A block of `Mb` rows times `W`, at row `y 0` of the block, is `X · W` at the array's row `i 0`, when the block's
    row `y 0` is the array's row `i 0` (`hx`) and the two right operands agree on column `y 1` / `i 1` (`hw`). -/
theorem rowblock_sum {Mb : Nat}
    (dW : DotDims (⟨2, ![M, K]⟩ : Shape) (⟨2, ![K, N]⟩ : Shape) (⟨2, ![M, N]⟩ : Shape)) (hW : PlainDot dW)
    (dB : DotDims (⟨2, ![Mb, K]⟩ : Shape) (⟨2, ![K, N]⟩ : Shape) (⟨2, ![Mb, N]⟩ : Shape)) (hB : PlainDot dB)
    (X : (⟨2, ![M, K]⟩ : Shape).Idx → EReal) (W : (⟨2, ![K, N]⟩ : Shape).Idx → EReal)
    (xb : (⟨2, ![Mb, K]⟩ : Shape).Idx → EReal) (wb : (⟨2, ![K, N]⟩ : Shape).Idx → EReal)
    (y : (⟨2, ![Mb, N]⟩ : Shape).Idx) (i : (⟨2, ![M, N]⟩ : Shape).Idx)
    (hx : ∀ k : Fin K, xb (ix2 (y 0) k) = X (ix2 (i 0) k))
    (hw : ∀ k : Fin K, wb (ix2 k (y 1)) = W (ix2 k (i 1))) :
    ∑ q : dB.contr.Idx, xb (dB.lhsIdx y q) * wb (dB.rhsIdx y q) = ∑ q : dW.contr.Idx, X (dW.lhsIdx i q) * W (dW.rhsIdx i q) := by
  rw [sum_contr_eq dB hB, sum_contr_eq dW hW]
  exact Finset.sum_congr rfl fun k _ => congrArg₂ (· * ·) (hx k) (hw k)

end Idealize.ShloMosaic.RowBlockDot
-- ==== Proof.KDense1.lean ====
/-
  The first dense layer inside the kernel, read index by index at the extended reals.

  One grid step loads a block of 2000 rows of `X` (all 512 columns), the whole of `W` and the whole of `b`, rounds
  the two matrices to bf16 (no change at the extended reals), multiplies them into a zero accumulator, adds `b` along
  the rows and stores the 2000 × 256 result. So entry `(r, c)` of the stored block is
  `∑ k, Xblock (r, k) · W (k, c) + b c` (`block_entry`), the affine map of the specification on that block.
-/
import proofs.«157292_j9801115370057_1_alg».proof.Proof.Gen.KernelIdeal.Frame
import proofs.«157292_j9801115370057_1_alg».proof.Proof.Spec
import proofs.«157292_j9801115370057_1_alg».proof.Proof.LibRowBlockDot
import Idealize.ShloMosaic.Lib.Pipeline.Value
import Idealize.ShloMosaic.Lib.ValueIdx
import Idealize.ShloMosaic.PureOps.Ideal.Laws

noncomputable section

namespace Cert.KernelIdeal.Dense1

open Cert.KernelIdeal Cert.KernelIdeal.Gen Idealize.ShloMosaic Idealize.ShloMosaic.ValueIdx
open Idealize.ShloMosaic.RowBlockDot Cert.Gcn
open scoped BigOperators

/-- The block product's dimension numbers are a plain matrix product's: one contracted axis of extent 512, the
    left operand read at `(r, k)`, the right at `(k, c)`. -/
theorem plain : PlainDot dot_S2000x512_S512x256_S2000x256_1_0_0_1_n_n where
  hr := rfl
  hs := rfl
  l0 := fun j q => by
    unfold DotDims.lhsIdx
    rw [dif_neg (show ¬(0 : Fin S2000x512.rank) ∈ dot_S2000x512_S512x256_S2000x256_1_0_0_1_n_n.lhsBatch by decide),
      dif_pos (show (0 : Fin S2000x512.rank) ∈ dot_S2000x512_S512x256_S2000x256_1_0_0_1_n_n.lhsNonContracting by decide)]
    rfl
  l1 := fun j q => dot_S2000x512_S512x256_S2000x256_1_0_0_1_n_n.lhsIdx_val_of_single rfl j q
  r0 := fun j q => dot_S2000x512_S512x256_S2000x256_1_0_0_1_n_n.rhsIdx_val_of_single rfl j q
  r1 := fun j q => by
    unfold DotDims.rhsIdx
    rw [dif_neg (show ¬(1 : Fin S512x256.rank) ∈ dot_S2000x512_S512x256_S2000x256_1_0_0_1_n_n.rhsBatch by decide),
      dif_pos (show (1 : Fin S512x256.rank) ∈ dot_S2000x512_S512x256_S2000x256_1_0_0_1_n_n.rhsNonContracting by decide)]
    rfl

/-- The bias row, recast as a 1 × 256 matrix and repeated down 2000 rows, read at `(r, c)` is `b c`. -/
theorem bias_entry (x2 : Vec Ideal S256 .f32) (r : Fin 2000) (c : Fin 256) :
    broadcastTo S2000x256 (shapeCast S1x256 x2 shapeCasts_S256_S1x256) broadcasts_S1x256_S2000x256 (ix2 r c) = x2 (ix1 c) := by
  rw [broadcastTo_apply _ _ (ix2 r c) (ix2 (0 : Fin 1) c) (fun a => by
    match a with
    | ⟨0, _⟩ => rfl
    | ⟨1, _⟩ => rfl)]
  rw [shapeCast_addUnit_apply]
  exact congrArg x2 (funext fun a => by match a with | ⟨0, _⟩ => rfl)

/-- Entry `(r, c)` of what one grid step stores: `∑ k, x0 (r, k) · x1 (k, c) + x2 c`. -/
theorem block_entry (x0 : Vec Ideal S2000x512 .f32) (x1 : Vec Ideal S512x256 .f32) (x2 : Vec Ideal S256 .f32) (r : Fin 2000) (c : Fin 256) :
    k0_pay1 (F := Ideal) x0 x1 x2 (ix2 r c) = (∑ k : Fin 512, x0 (ix2 r k) * x1 (ix2 k c)) + x2 (ix1 c) := by
  unfold k0_pay1
  show FloatOps.matmul (F := Ideal) dot_S2000x512_S512x256_S2000x256_1_0_0_1_n_n none (truncf .bf16 x0 bitsLt_bf16_f32) (truncf .bf16 x1 bitsLt_bf16_f32)
      (constant S2000x256 .f32 0x00000000#32) (ix2 r c)
    + broadcastTo S2000x256 (shapeCast S1x256 x2 shapeCasts_S256_S1x256) broadcasts_S1x256_S2000x256 (ix2 r c) = _
  rw [Ideal.matmul_constant_zero_apply, bias_entry]
  exact congrArg (· + x2 (ix1 c)) (sum_contr_eq _ plain x0 x1 (ix2 r c))

end Cert.KernelIdeal.Dense1

end
-- ==== Proof.KArray1.lean ====
/-
  The first dense layer's output array after the kernel region.

  Grid step `t` reads rows `2000 t … 2000 t + 1999` of `X`, all of `W` and `b`, and writes rows `2000 t … 2000 t + 1999` of
  the output. By `block_entry` what it writes is the affine map `X · W + b` of the specification restricted to those
  rows (`flushed_eq`); the 25 steps' row bands cover all 50000 rows (`cover`), so after the region the output array
  IS `X · W + b` of the arrays the region was entered with (`array_eq`).
-/
import proofs.«157292_j9801115370057_1_alg».proof.Proof.KDense1

noncomputable section

namespace Cert.KernelIdeal.Dense1

open Cert.KernelIdeal Cert.KernelIdeal.Gen Idealize.ShloMosaic Idealize.ShloMosaic.TcCoe Idealize.SL.Sem
open Idealize.ShloMosaic.ValueIdx Idealize.ShloMosaic.RowBlockDot Cert.Gcn
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 25 grid steps: the `X` window's row-block index is the output's and its column
    block is 0; `W` and `b` are read whole; the output's column block is 0 and its row block at most 24. -/
theorem idx_facts : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0 ∧ win0_2.index t (0 : Fin 1) = 0
    ∧ win0_3.index t (1 : Fin 2) = 0 ∧ win0_3.index t (0 : Fin 2) ≤ 24 :=
  (by decide +kernel : ∀ t : Fin grid0.N, _)

/-- Every row band is some grid step's. -/
theorem idx_onto : ∀ q : Fin 25, ∃ t : Fin cfg0.N, win0_3.index t = ![q.val, 0] :=
  (by decide +kernel : ∀ q : Fin 25, ∃ t : Fin grid0.N, win0_3.index t = ![q.val, 0])

/-- What grid step `t` writes back is its row band of `X · W + b`. -/
theorem flushed_eq (c : Dev nD) (t : Fin cfg0.N) :
    (dat0 V c).flushed 3 t = ((cfg0.win 3).blk t).view.read (Elt Ideal)
      (affine (M := 50000) (K := 512) (N := 256) (V c main_arg0) (V c main_arg4) (V c main_arg5)) := by
  show (cfg0.win 3).cut (grid0.coords t) ((dat0 V c).after 3 t) = _
  rw [after0_3]
  unfold out0_3
  rw [View.canon_unit_zero hz2]
  simp only [View.ld_unit_zero (S := S2000x512) hz2, View.ld_unit_zero (S := S512x256) hz2, View.ld_unit_zero (S := S256) hz1]
  obtain ⟨e0, e1, e2, e3, e4, e5, e6⟩ := idx_facts t
  funext j
  obtain ⟨r, q, rfl⟩ : ∃ (r : Fin 2000) (q : Fin 256), j = ix2 r q := ⟨j 0, j 1, eq_ix2 j⟩
  show k0_pay1 (iblk0 V c 0 t) (iblk0 V c 1 t) (iblk0 V c 2 t) (ix2 r q)
    = affine (M := 50000) (K := 512) (N := 256) (V c main_arg0) (V c main_arg4) (V c main_arg5) (((cfg0.win 3).blk t).view.emb (ix2 r q))
  refine (block_entry _ _ _ r q).trans ?_
  unfold affine
  -- the three loaded blocks, read where the output's row band says
  have h0 : ∀ k : Fin 512, iblk0 V c 0 t (ix2 r k)
      = (V c main_arg0 : S50000x512.Idx → EReal) (ix2 ((((cfg0.win 3).blk t).view.emb (ix2 r q)) 0) k) := fun k => by
    show (V c main_arg0 : S50000x512.Idx → EReal) (((cfg0.win 0).blk t).view.emb (ix2 r k)) = _
    refine congrArg (V c main_arg0 : S50000x512.Idx → EReal) (funext fun a => Fin.ext ?_)
    match a with
    | ⟨0, _⟩ => show win0_0.index t (0 : Fin 2) * 2000 + 1 * r.val = win0_3.index t (0 : Fin 2) * 2000 + 1 * r.val; omega
    | ⟨1, _⟩ => show win0_0.index t (1 : Fin 2) * 512 + 1 * k.val = k.val; omega
  have h1 : ∀ k : Fin 512, iblk0 V c 1 t (ix2 k q)
      = (V c main_arg4 : S512x256.Idx → EReal) (ix2 k ((((cfg0.win 3).blk t).view.emb (ix2 r q)) 1)) := fun k => by
    show (V c main_arg4 : S512x256.Idx → EReal) (((cfg0.win 1).blk t).view.emb (ix2 k q)) = _
    refine congrArg (V c main_arg4 : S512x256.Idx → EReal) (funext fun a => Fin.ext ?_)
    match a with
    | ⟨0, _⟩ => show win0_1.index t (0 : Fin 2) * 512 + 1 * k.val = k.val; omega
    | ⟨1, _⟩ => show win0_1.index t (1 : Fin 2) * 256 + 1 * q.val = win0_3.index t (1 : Fin 2) * 256 + 1 * q.val; omega
  have h2 : iblk0 V c 2 t (ix1 q)
      = (V c main_arg5 : S256.Idx → EReal) (ix1 ((((cfg0.win 3).blk t).view.emb (ix2 r q)) 1)) := by
    show (V c main_arg5 : S256.Idx → EReal) (((cfg0.win 2).blk t).view.emb (ix1 q)) = _
    refine congrArg (V c main_arg5 : S256.Idx → EReal) (funext fun a => Fin.ext ?_)
    match a with
    | ⟨0, _⟩ => show win0_2.index t (0 : Fin 1) * 256 + 1 * q.val = win0_3.index t (1 : Fin 2) * 256 + 1 * q.val; omega
  rw [h2]
  exact congrArg (· + _) (Finset.sum_congr rfl fun k _ => congrArg₂ (· * ·) (h0 k) (h1 k))

/-- An index of the output array is in grid step `t`'s row band iff each coordinate is in the band's range. -/
theorem mem_blk (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v0).slice (win0_3.rect t)).set ↔ _
  rw [View.set_slice_whole, Rect.mem_set_unit]
  exact Iff.rfl

/-- The 25 row bands cover the array: row `r` is in band `r / 2000`. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- After the region the output array is `X · W + b` of the arrays the region was entered with. -/
theorem array_eq (c : Dev nD) :
    (dat0 V c).arrAt 3 cfg0.N = affine (M := 50000) (K := 512) (N := 256) (V c main_arg0) (V c main_arg4) (V c main_arg5) :=
  (dat0 V c).arrAt_eq_of_cover 3 _ (fun t _ => flushed_eq V c t) cover

end Cert.KernelIdeal.Dense1

end
-- ==== Proof.KDense2.lean ====
/-
  The second dense layer inside the kernel, read index by index at the extended reals.

  One grid step loads a block of 2000 rows of the hidden features `H` (all 256 columns), the whole of `W` and the whole
  of `b`, rounds the two matrices to bf16 (no change at the extended reals; the recast of the block to its own shape before
  it is the identity), multiplies them into a zero accumulator, adds `b` along the rows and stores the 2000 × 40 result.
  So entry `(r, c)` of the stored block is `∑ k, Hblock (r, k) · W (k, c) + b c` (`block_entry`).
-/
import proofs.«157292_j9801115370057_1_alg».proof.Proof.Gen.KernelIdeal.Frame
import proofs.«157292_j9801115370057_1_alg».proof.Proof.Spec
import proofs.«157292_j9801115370057_1_alg».proof.Proof.LibRowBlockDot
import Idealize.ShloMosaic.Lib.Pipeline.Value
import Idealize.ShloMosaic.Lib.ValueIdx
import Idealize.ShloMosaic.PureOps.Ideal.Laws

noncomputable section

namespace Cert.KernelIdeal.Dense2

open Cert.KernelIdeal Cert.KernelIdeal.Gen Idealize.ShloMosaic Idealize.ShloMosaic.ValueIdx
open Idealize.ShloMosaic.RowBlockDot Cert.Gcn
open scoped BigOperators

/-- The block product's dimension numbers are a plain matrix product's: one contracted axis of extent 256, the
    left operand read at `(r, k)`, the right at `(k, c)`. -/
theorem plain : PlainDot dot_S2000x256_S256x40_S2000x40_1_0_0_1_n_n where
  hr := rfl
  hs := rfl
  l0 := fun j q => by
    unfold DotDims.lhsIdx
    rw [dif_neg (show ¬(0 : Fin S2000x256.rank) ∈ dot_S2000x256_S256x40_S2000x40_1_0_0_1_n_n.lhsBatch by decide),
      dif_pos (show (0 : Fin S2000x256.rank) ∈ dot_S2000x256_S256x40_S2000x40_1_0_0_1_n_n.lhsNonContracting by decide)]
    rfl
  l1 := fun j q => dot_S2000x256_S256x40_S2000x40_1_0_0_1_n_n.lhsIdx_val_of_single rfl j q
  r0 := fun j q => dot_S2000x256_S256x40_S2000x40_1_0_0_1_n_n.rhsIdx_val_of_single rfl j q
  r1 := fun j q => by
    unfold DotDims.rhsIdx
    rw [dif_neg (show ¬(1 : Fin S256x40.rank) ∈ dot_S2000x256_S256x40_S2000x40_1_0_0_1_n_n.rhsBatch by decide),
      dif_pos (show (1 : Fin S256x40.rank) ∈ dot_S2000x256_S256x40_S2000x40_1_0_0_1_n_n.rhsNonContracting by decide)]
    rfl

/-- The bias row, recast as a 1 × 40 matrix and repeated down 2000 rows, read at `(r, c)` is `b c`. -/
theorem bias_entry (x2 : Vec Ideal S40 .f32) (r : Fin 2000) (c : Fin 40) :
    broadcastTo S2000x40 (shapeCast S1x40 x2 shapeCasts_S40_S1x40) broadcasts_S1x40_S2000x40 (ix2 r c) = x2 (ix1 c) := by
  rw [broadcastTo_apply _ _ (ix2 r c) (ix2 (0 : Fin 1) c) (fun a => by
    match a with
    | ⟨0, _⟩ => rfl
    | ⟨1, _⟩ => rfl)]
  rw [shapeCast_addUnit_apply]
  exact congrArg x2 (funext fun a => by match a with | ⟨0, _⟩ => rfl)

/-- Entry `(r, c)` of what one grid step stores: `∑ k, x0 (r, k) · x1 (k, c) + x2 c`. -/
theorem block_entry (x0 : Vec Ideal S2000x256 .f32) (x1 : Vec Ideal S256x40 .f32) (x2 : Vec Ideal S40 .f32) (r : Fin 2000) (c : Fin 40) :
    k1_pay1 (F := Ideal) x0 x1 x2 (ix2 r c) = (∑ k : Fin 256, x0 (ix2 r k) * x1 (ix2 k c)) + x2 (ix1 c) := by
  unfold k1_pay1
  show FloatOps.matmul (F := Ideal) dot_S2000x256_S256x40_S2000x40_1_0_0_1_n_n none (truncf .bf16 (shapeCast S2000x256 x0 shapeCasts_S2000x256_S2000x256) bitsLt_bf16_f32) (truncf .bf16 x1 bitsLt_bf16_f32)
      (constant S2000x40 .f32 0x00000000#32) (ix2 r c)
    + broadcastTo S2000x40 (shapeCast S1x40 x2 shapeCasts_S40_S1x40) broadcasts_S1x40_S2000x40 (ix2 r c) = _
  rw [shapeCast_self, Ideal.matmul_constant_zero_apply, bias_entry]
  exact congrArg (· + x2 (ix1 c)) (sum_contr_eq _ plain x0 x1 (ix2 r c))

end Cert.KernelIdeal.Dense2

end
-- ==== Proof.KArray2.lean ====
/-
  The second dense layer's output array after the kernel region.

  Grid step `t` reads rows `2000 t … 2000 t + 1999` of the hidden features `H`, all of `W` and `b`, and writes rows
  `2000 t … 2000 t + 1999` of the output. By `block_entry` what it writes is `H · W + b` restricted to those rows
  (`flushed_eq`); the 25 row bands cover all 50000 rows (`cover`), so after the region the output array IS `H · W + b` of
  the arrays the region was entered with (`array_eq`).
-/
import proofs.«157292_j9801115370057_1_alg».proof.Proof.KDense2

noncomputable section

namespace Cert.KernelIdeal.Dense2

open Cert.KernelIdeal Cert.KernelIdeal.Gen Idealize.ShloMosaic Idealize.ShloMosaic.TcCoe Idealize.SL.Sem
open Idealize.ShloMosaic.ValueIdx Idealize.ShloMosaic.RowBlockDot Cert.Gcn
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 25 grid steps: the `H` window's row-block index is the output's and its column
    block is 0; `W` and `b` are read whole; the output's column block is 0 and its row block at most 24. -/
theorem idx_facts : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0 ∧ win1_2.index t (0 : Fin 1) = 0
    ∧ win1_3.index t (1 : Fin 2) = 0 ∧ win1_3.index t (0 : Fin 2) ≤ 24 :=
  (by decide +kernel : ∀ t : Fin grid1.N, _)

/-- Every row band is some grid step's. -/
theorem idx_onto : ∀ q : Fin 25, ∃ t : Fin cfg1.N, win1_3.index t = ![q.val, 0] :=
  (by decide +kernel : ∀ q : Fin 25, ∃ t : Fin grid1.N, win1_3.index t = ![q.val, 0])

/-- What grid step `t` writes back is its row band of `H · W + b`. -/
theorem flushed_eq (c : Dev nD) (t : Fin cfg1.N) :
    (dat1 V c).flushed 3 t = ((cfg1.win 3).blk t).view.read (Elt Ideal)
      (affine (M := 50000) (K := 256) (N := 40) (V c main_v14) (V c main_arg6) (V c main_arg7)) := by
  show (cfg1.win 3).cut (grid1.coords t) ((dat1 V c).after 3 t) = _
  rw [after1_3]
  unfold out1_3
  rw [View.canon_unit_zero hz2]
  simp only [View.ld_unit_zero (S := S2000x256) hz2, View.ld_unit_zero (S := S256x40) hz2, View.ld_unit_zero (S := S40) hz1]
  obtain ⟨e0, e1, e2, e3, e4, e5, e6⟩ := idx_facts t
  funext j
  obtain ⟨r, q, rfl⟩ : ∃ (r : Fin 2000) (q : Fin 40), j = ix2 r q := ⟨j 0, j 1, eq_ix2 j⟩
  show k1_pay1 (iblk1 V c 0 t) (iblk1 V c 1 t) (iblk1 V c 2 t) (ix2 r q)
    = affine (M := 50000) (K := 256) (N := 40) (V c main_v14) (V c main_arg6) (V c main_arg7) (((cfg1.win 3).blk t).view.emb (ix2 r q))
  refine (block_entry _ _ _ r q).trans ?_
  unfold affine
  -- the three loaded blocks, read where the output's row band says
  have h0 : ∀ k : Fin 256, iblk1 V c 0 t (ix2 r k)
      = (V c main_v14 : S50000x256.Idx → EReal) (ix2 ((((cfg1.win 3).blk t).view.emb (ix2 r q)) 0) k) := fun k => by
    show (V c main_v14 : S50000x256.Idx → EReal) (((cfg1.win 0).blk t).view.emb (ix2 r k)) = _
    refine congrArg (V c main_v14 : S50000x256.Idx → EReal) (funext fun a => Fin.ext ?_)
    match a with
    | ⟨0, _⟩ => show win1_0.index t (0 : Fin 2) * 2000 + 1 * r.val = win1_3.index t (0 : Fin 2) * 2000 + 1 * r.val; omega
    | ⟨1, _⟩ => show win1_0.index t (1 : Fin 2) * 256 + 1 * k.val = k.val; omega
  have h1 : ∀ k : Fin 256, iblk1 V c 1 t (ix2 k q)
      = (V c main_arg6 : S256x40.Idx → EReal) (ix2 k ((((cfg1.win 3).blk t).view.emb (ix2 r q)) 1)) := fun k => by
    show (V c main_arg6 : S256x40.Idx → EReal) (((cfg1.win 1).blk t).view.emb (ix2 k q)) = _
    refine congrArg (V c main_arg6 : S256x40.Idx → EReal) (funext fun a => Fin.ext ?_)
    match a with
    | ⟨0, _⟩ => show win1_1.index t (0 : Fin 2) * 256 + 1 * k.val = k.val; omega
    | ⟨1, _⟩ => show win1_1.index t (1 : Fin 2) * 40 + 1 * q.val = win1_3.index t (1 : Fin 2) * 40 + 1 * q.val; omega
  have h2 : iblk1 V c 2 t (ix1 q)
      = (V c main_arg7 : S40.Idx → EReal) (ix1 ((((cfg1.win 3).blk t).view.emb (ix2 r q)) 1)) := by
    show (V c main_arg7 : S40.Idx → EReal) (((cfg1.win 2).blk t).view.emb (ix1 q)) = _
    refine congrArg (V c main_arg7 : S40.Idx → EReal) (funext fun a => Fin.ext ?_)
    match a with
    | ⟨0, _⟩ => show win1_2.index t (0 : Fin 1) * 40 + 1 * q.val = win1_3.index t (1 : Fin 2) * 40 + 1 * q.val; omega
  rw [h2]
  exact congrArg (· + _) (Finset.sum_congr rfl fun k _ => congrArg₂ (· * ·) (h0 k) (h1 k))

/-- An index of the output array is in grid step `t`'s row band iff each coordinate is in the band's range. -/
theorem mem_blk (t : Fin cfg1.N) (i : S50000x40.Idx) :
    i ∈ ((cfg1.win 3).blk t).view.set ↔ ∀ a : Fin 2, win1_3.index t a * S2000x40.size a ≤ (i a).val
      ∧ (i a).val < win1_3.index t a * S2000x40.size a + S2000x40.size a := by
  show i ∈ ((View.whole main_v15).slice (win1_3.rect t)).set ↔ _
  rw [View.set_slice_whole, Rect.mem_set_unit]
  exact Iff.rfl

/-- The 25 row bands cover the array: row `r` is in band `r / 2000`. -/
theorem cover (i : S50000x40.Idx) : ∃ t : Fin cfg1.N, (cfg1.win 3).flush t = true ∧ i ∈ ((cfg1.win 3).blk t).view.set := by
  have hi0 : (i 0).val < 50000 := (i 0).isLt
  have hi1 : (i 1).val < 40 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 40 ≤ (i 1).val ∧ (i 1).val < win1_3.index t (1 : Fin 2) * 40 + 40; omega

/-- After the region the output array is `H · W + b` of the arrays the region was entered with. -/
theorem array_eq (c : Dev nD) :
    (dat1 V c).arrAt 3 cfg1.N = affine (M := 50000) (K := 256) (N := 40) (V c main_v14) (V c main_arg6) (V c main_arg7) :=
  (dat1 V c).arrAt_eq_of_cover 3 _ (fun t _ => flushed_eq V c t) cover

end Cert.KernelIdeal.Dense2

end
-- ==== Proof.LibTypedRefCast.lean ====
/-
  Typed references of a called function's values: the transport of contents to the buffer's own type and back.

  A typed reference carries a buffer together with the fact that the buffer's type is the value's type; contents at
  the value's type are moved to the buffer's type along that fact (`toBuf`) and back (`ofBuf`). Moving there and
  back is the identity (`ofBuf_toBuf`): the two transports are along an equation and its inverse. Stated with the
  buffer and the three facts as separate variables, so that a rewrite finds every literal reference's round trip.
-/
import Idealize.ShloMosaic.Lib.StableHlo

namespace Idealize.ShloMosaic.StableHlo.TRefCast

open Idealize.ShloMosaic Idealize.ShloMosaic.StableHlo

/-- Contents moved to a buffer's own type and back are the contents. -/
theorem ofBuf_toBuf {sig : RefSig} {Val : EltTy → Type} {T : BufTy} (r : Ref sig .tc) (h1 : r.ty = T) (h2 : r.space ≠ .host)
    (h3 : r.isScoped = false) (v : T.Contents Val) :
    (TRef.of r h1 h2 h3).ofBuf ((TRef.of r h1 h2 h3).toBuf v) = v := by
  subst h1; rfl

end Idealize.ShloMosaic.StableHlo.TRefCast
-- ==== Proof.KTail.lean ====
/-
  The host operations around the two kernel regions, stage by stage.

  Between the regions the program gathers the rows `support[src e]`, scales each by `w e`, adds them into the rows
  `dst e` of a zero array and applies the rectifier; after the second region it does the same at width 40 and then takes
  the row-wise log-softmax. Each stretch of operations, run from ANY buffer contents `V`, leaves in its result buffer the
  specification's function of what `V` holds in the buffers the stretch reads (`layer1_tail`, `layer2_tail`,
  `softmax_tail`), and leaves alone the buffers it does not write (`kept1`, `kept2`).
-/
import proofs.«157292_j9801115370057_1_alg».proof.Proof.Gen.KernelIdeal.Frame
import proofs.«157292_j9801115370057_1_alg».proof.Proof.Spec
import proofs.«157292_j9801115370057_1_alg».proof.Proof.LibTypedRefCast
import Idealize.ShloMosaic.Lib.StableHlo.Run

noncomputable section

namespace Cert.KernelIdeal.Tails

open Cert.KernelIdeal Cert.KernelIdeal.Gen Idealize.ShloMosaic Idealize.ShloMosaic.TcCoe Idealize.SL.Sem
open Idealize.ShloMosaic.StableHlo Idealize.ShloMosaic.StableHlo.TRefCast Cert.Gcn

variable {F : FTy → Type} [FloatOps F]

/-- This program's witnesses of the side conditions the specification's operations take. -/
theorem agg1 : AggFacts 256 := ⟨bcast_S_S800000, bcast_S800000_S800000x1_0, bcast_S800000x1_S800000x256_0_1, bcast_S_S50000x256⟩
theorem agg2 : AggFacts 40 := ⟨bcast_S_S800000, bcast_S800000_S800000x1_0, bcast_S800000x1_S800000x40_0_1, bcast_S_S50000x40⟩
theorem lsm : LsmFacts := ⟨reducesTo_S50000x40_S50000_d1, h_S_, bcast_S_S50000, bcast_S50000_S50000x1_0, bcast_S50000x1_S50000x40_0_1⟩

/-- The stretch after the first region: the neighbourhood sum of the first region's output, rectified. -/
theorem layer1_tail (V : Valuation τ sig (Elt F)) :
    after hostOps1_1 (after hostOps1 V) (Proc.devRef .tc main_v14)
      = aggregate (F := F) agg1 gather_S50000x256_S800000x1_S800000x256_1_0_n_n_0_1_1256 scatter_S50000x256_S800000x1_S800000x256_1_0_0_1
          (V (Proc.devRef .tc main_v0)) (V (Proc.devRef .tc main_arg1)) (V (Proc.devRef .tc main_arg2)) (V (Proc.devRef .tc main_arg3)) := by
  after_results
  simp only [ofBuf_toBuf]
  rfl

/-- It writes neither the second layer's weights nor the edge lists. -/
theorem kept1 (V : Valuation τ sig (Elt F)) :
    after hostOps1_1 (after hostOps1 V) (Proc.devRef .tc main_arg6) = V (Proc.devRef .tc main_arg6)
    ∧ after hostOps1_1 (after hostOps1 V) (Proc.devRef .tc main_arg7) = V (Proc.devRef .tc main_arg7)
    ∧ after hostOps1_1 (after hostOps1 V) (Proc.devRef .tc main_arg1) = V (Proc.devRef .tc main_arg1)
    ∧ after hostOps1_1 (after hostOps1 V) (Proc.devRef .tc main_arg2) = V (Proc.devRef .tc main_arg2)
    ∧ after hostOps1_1 (after hostOps1 V) (Proc.devRef .tc main_arg3) = V (Proc.devRef .tc main_arg3) := by
  refine ⟨?_, ?_, ?_, ?_, ?_⟩ <;> (after_results <;> rfl)

set_option maxHeartbeats 2000000 in
/-- The stretch after the second region: the neighbourhood sum of the second region's output, rectified. -/
theorem layer2_tail (V : Valuation τ sig (Elt F)) :
    after hostOps2_1 (after hostOps2 V) (Proc.devRef .tc main_v29)
      = aggregate (F := F) agg2 gather_S50000x40_S800000x1_S800000x40_1_0_n_n_0_1_140 scatter_S50000x40_S800000x1_S800000x40_1_0_0_1
          (V (Proc.devRef .tc main_v15)) (V (Proc.devRef .tc main_arg1)) (V (Proc.devRef .tc main_arg2)) (V (Proc.devRef .tc main_arg3)) := by
  after_results
  simp only [ofBuf_toBuf]
  rfl

/-- The last stretch: the row-wise log-softmax of what it finds in the rectifier's result buffer. -/
theorem softmax_tail (V : Valuation τ sig (Elt F)) :
    after hostOps2_2 V (Proc.devRef .tc main_v30) = logSoftmaxRows (F := F) lsm (V (Proc.devRef .tc main_v29)) := by
  after_results
  simp only [ofBuf_toBuf]
  rfl

end Cert.KernelIdeal.Tails

end
-- ==== Proof.KRun.lean ====
/-
  The kernel program's run with its result named, and the result as the specification's function of the arguments.

  The program is two kernel regions among stretches of host operations. Its run ends with every unscoped buffer at the
  contents the fold through the segments gives it (`run_named`: the run of the frame certificate, its post extended by the
  result buffer). Reading that fold back stage by stage — the last stretch is the log-softmax of the rectified
  neighbourhood sum of the second region's output; that output is `H · W2 + b2` of the arrays the region was entered with;
  `H` is the rectified neighbourhood sum of the first region's output, which is `X · W1 + b1`; no stretch and no region
  writes an argument — gives the result as the specification's `network` of the argument arrays (`result_eq`, `run`).
-/
import proofs.«157292_j9801115370057_1_alg».proof.Proof.KArray1
import proofs.«157292_j9801115370057_1_alg».proof.Proof.KArray2
import proofs.«157292_j9801115370057_1_alg».proof.Proof.KTail

set_option maxRecDepth 16384

noncomputable section

namespace Cert.KernelIdeal.Staged

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Gcn Cert.KernelIdeal.Tails

section Named

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_named : θ_run defs (onTc (τ := τ) (main (F := F))) ⟨m, fun _ => 0, ρ⟩ (fun r => ∀ c : Dev nD,
      r.2.mem ((c.tc : Thread nD τ).loc main_v30) = W7 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v30 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Named

section Read

variable (m : (ℓ : Loc nD τ sig) → Buf (Elt Ideal) ℓ) (ρ : Dev nD → PrngReg) (c : Dev nD)

/-- The first region's output: `X · W1 + b1` of the launch contents. -/
theorem first_dense : W1 m ρ c (Proc.devRef .tc main_v0)
    = affine (M := 50000) (K := 512) (N := 256) (m ((c.tc : Thread nD τ).loc main_arg0)) (m ((c.tc : Thread nD τ).loc main_arg4)) (m ((c.tc : Thread nD τ).loc main_arg5)) :=
  (W1_arr m ρ c 3).trans (Dense1.array_eq (V0 m ρ) c)

/-- The first region writes none of the edge lists and none of the second layer's weights. -/
theorem first_kept1 : W1 m ρ c (Proc.devRef .tc main_arg1) = m ((c.tc : Thread nD τ).loc main_arg1) := W1_of_ne m ρ c main_arg1 (by decide)
theorem first_kept2 : W1 m ρ c (Proc.devRef .tc main_arg2) = m ((c.tc : Thread nD τ).loc main_arg2) := W1_of_ne m ρ c main_arg2 (by decide)
theorem first_kept3 : W1 m ρ c (Proc.devRef .tc main_arg3) = m ((c.tc : Thread nD τ).loc main_arg3) := W1_of_ne m ρ c main_arg3 (by decide)
theorem first_kept6 : W1 m ρ c (Proc.devRef .tc main_arg6) = m ((c.tc : Thread nD τ).loc main_arg6) := W1_of_ne m ρ c main_arg6 (by decide)
theorem first_kept7 : W1 m ρ c (Proc.devRef .tc main_arg7) = m ((c.tc : Thread nD τ).loc main_arg7) := W1_of_ne m ρ c main_arg7 (by decide)

/-- The hidden features the second region is entered with. -/
theorem hidden : W3 m ρ c (Proc.devRef .tc main_v14)
    = aggregate (F := Ideal) agg1 gather_S50000x256_S800000x1_S800000x256_1_0_n_n_0_1_1256 scatter_S50000x256_S800000x1_S800000x256_1_0_0_1
        (affine (M := 50000) (K := 512) (N := 256) (m ((c.tc : Thread nD τ).loc main_arg0)) (m ((c.tc : Thread nD τ).loc main_arg4)) (m ((c.tc : Thread nD τ).loc main_arg5)))
        (m ((c.tc : Thread nD τ).loc main_arg1)) (m ((c.tc : Thread nD τ).loc main_arg2)) (m ((c.tc : Thread nD τ).loc main_arg3)) := by
  have h := layer1_tail (F := Ideal) (W1 m ρ c)
  rw [first_dense m ρ c, first_kept1 m ρ c, first_kept2 m ρ c, first_kept3 m ρ c] at h
  exact h

/-- The second region is entered with the arguments as launched. -/
theorem second_entry1 : W3 m ρ c (Proc.devRef .tc main_arg1) = m ((c.tc : Thread nD τ).loc main_arg1) :=
  ((kept1 (F := Ideal) (W1 m ρ c)).2.2.1).trans (first_kept1 m ρ c)
theorem second_entry2 : W3 m ρ c (Proc.devRef .tc main_arg2) = m ((c.tc : Thread nD τ).loc main_arg2) :=
  ((kept1 (F := Ideal) (W1 m ρ c)).2.2.2.1).trans (first_kept2 m ρ c)
theorem second_entry3 : W3 m ρ c (Proc.devRef .tc main_arg3) = m ((c.tc : Thread nD τ).loc main_arg3) :=
  ((kept1 (F := Ideal) (W1 m ρ c)).2.2.2.2).trans (first_kept3 m ρ c)
theorem second_entry6 : W3 m ρ c (Proc.devRef .tc main_arg6) = m ((c.tc : Thread nD τ).loc main_arg6) :=
  ((kept1 (F := Ideal) (W1 m ρ c)).1).trans (first_kept6 m ρ c)
theorem second_entry7 : W3 m ρ c (Proc.devRef .tc main_arg7) = m ((c.tc : Thread nD τ).loc main_arg7) :=
  ((kept1 (F := Ideal) (W1 m ρ c)).2.1).trans (first_kept7 m ρ c)

/-- The second region's output: `H · W2 + b2` of the hidden features and the launch contents. -/
theorem second_dense : W4 m ρ c (Proc.devRef .tc main_v15)
    = affine (M := 50000) (K := 256) (N := 40) (W3 m ρ c (Proc.devRef .tc main_v14)) (m ((c.tc : Thread nD τ).loc main_arg6)) (m ((c.tc : Thread nD τ).loc main_arg7)) := by
  have h := (W4_arr m ρ c 3).trans (Dense2.array_eq (V3 m ρ) c)
  rw [show V3 m ρ c main_arg6 = m ((c.tc : Thread nD τ).loc main_arg6) from second_entry6 m ρ c,
    show V3 m ρ c main_arg7 = m ((c.tc : Thread nD τ).loc main_arg7) from second_entry7 m ρ c] at h
  exact h

/-- The second region writes none of the edge lists. -/
theorem second_kept1 : W4 m ρ c (Proc.devRef .tc main_arg1) = m ((c.tc : Thread nD τ).loc main_arg1) :=
  (W4_of_ne m ρ c main_arg1 (by decide)).trans (second_entry1 m ρ c)
theorem second_kept2 : W4 m ρ c (Proc.devRef .tc main_arg2) = m ((c.tc : Thread nD τ).loc main_arg2) :=
  (W4_of_ne m ρ c main_arg2 (by decide)).trans (second_entry2 m ρ c)
theorem second_kept3 : W4 m ρ c (Proc.devRef .tc main_arg3) = m ((c.tc : Thread nD τ).loc main_arg3) :=
  (W4_of_ne m ρ c main_arg3 (by decide)).trans (second_entry3 m ρ c)

/-- THE RESULT: the last boundary's contents of the result buffer are the specification's network of the arguments. -/
theorem result_eq : W7 m ρ c (Proc.devRef .tc main_v30)
    = network agg1 gather_S50000x256_S800000x1_S800000x256_1_0_n_n_0_1_1256 scatter_S50000x256_S800000x1_S800000x256_1_0_0_1 agg2 gather_S50000x40_S800000x1_S800000x40_1_0_n_n_0_1_140 scatter_S50000x40_S800000x1_S800000x40_1_0_0_1 lsm
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  have h5 := softmax_tail (F := Ideal) (W6 m ρ c)
  have h4 := layer2_tail (F := Ideal) (W4 m ρ c)
  rw [second_dense m ρ c, hidden m ρ c, second_kept1 m ρ c, second_kept2 m ρ c, second_kept3 m ρ c] at h4
  refine h5.trans ?_
  unfold network
  exact congrArg (logSoftmaxRows (F := Ideal) lsm) h4

/-- Every weakly fair execution of the kernel program ends with the result buffer at the specification's network of the
    launch contents of the arguments, and the arguments unchanged. -/
theorem run : θ_run defs (onTc (τ := τ) (main (F := Ideal))) ⟨m, fun _ => 0, ρ⟩ (fun r => ∀ c : Dev nD,
      r.2.mem ((c.tc : Thread nD τ).loc main_v30)
        = network agg1 gather_S50000x256_S800000x1_S800000x256_1_0_n_n_0_1_1256 scatter_S50000x256_S800000x1_S800000x256_1_0_0_1 agg2 gather_S50000x40_S800000x1_S800000x40_1_0_n_n_0_1_140 scatter_S50000x40_S800000x1_S800000x40_1_0_0_1 lsm
            (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_named m ρ)

end Read

end Cert.KernelIdeal.Staged

end
-- ==== Proof.RDense.lean ====
/-
  The reference's two dense layers, read index by index at the extended reals.

  The reference computes `X · W` by one whole-array product on the host and adds `b` repeated down the rows (`b` recast
  as a 1 × N matrix, then repeated over the M rows). At the extended reals the product read at `(r, c)` is
  `∑ k, X (r, k) · W (k, c)`, so the sum of the two is the affine map of the specification (`dense1_eq`, `dense2_eq`).
-/
import proofs.«157292_j9801115370057_1_alg».proof.Proof.Gen.ReferenceIdeal
import proofs.«157292_j9801115370057_1_alg».proof.Proof.Spec
import proofs.«157292_j9801115370057_1_alg».proof.Proof.LibRowBlockDot
import Idealize.ShloMosaic.Lib.Pipeline.Value
import Idealize.ShloMosaic.Lib.ValueIdx
import Idealize.ShloMosaic.PureOps.Ideal.Laws

noncomputable section

namespace Cert.ReferenceIdeal.Dense

open Cert.ReferenceIdeal Cert.ReferenceIdeal.Gen Idealize.ShloMosaic Idealize.ShloMosaic.ValueIdx
open Idealize.ShloMosaic.RowBlockDot Cert.Gcn
open scoped BigOperators

/-- The first product's dimension numbers are a plain matrix product's, contracting 512. -/
theorem plain1 : PlainDot dot_S50000x512_S512x256_S50000x256_1_0_0_1_n_n where
  hr := rfl
  hs := rfl
  l0 := fun j q => by
    unfold DotDims.lhsIdx
    rw [dif_neg (show ¬(0 : Fin S50000x512.rank) ∈ dot_S50000x512_S512x256_S50000x256_1_0_0_1_n_n.lhsBatch by decide),
      dif_pos (show (0 : Fin S50000x512.rank) ∈ dot_S50000x512_S512x256_S50000x256_1_0_0_1_n_n.lhsNonContracting by decide)]
    rfl
  l1 := fun j q => dot_S50000x512_S512x256_S50000x256_1_0_0_1_n_n.lhsIdx_val_of_single rfl j q
  r0 := fun j q => dot_S50000x512_S512x256_S50000x256_1_0_0_1_n_n.rhsIdx_val_of_single rfl j q
  r1 := fun j q => by
    unfold DotDims.rhsIdx
    rw [dif_neg (show ¬(1 : Fin S512x256.rank) ∈ dot_S50000x512_S512x256_S50000x256_1_0_0_1_n_n.rhsBatch by decide),
      dif_pos (show (1 : Fin S512x256.rank) ∈ dot_S50000x512_S512x256_S50000x256_1_0_0_1_n_n.rhsNonContracting by decide)]
    rfl

/-- The second product's dimension numbers are a plain matrix product's, contracting 256. -/
theorem plain2 : PlainDot dot_S50000x256_S256x40_S50000x40_1_0_0_1_n_n where
  hr := rfl
  hs := rfl
  l0 := fun j q => by
    unfold DotDims.lhsIdx
    rw [dif_neg (show ¬(0 : Fin S50000x256.rank) ∈ dot_S50000x256_S256x40_S50000x40_1_0_0_1_n_n.lhsBatch by decide),
      dif_pos (show (0 : Fin S50000x256.rank) ∈ dot_S50000x256_S256x40_S50000x40_1_0_0_1_n_n.lhsNonContracting by decide)]
    rfl
  l1 := fun j q => dot_S50000x256_S256x40_S50000x40_1_0_0_1_n_n.lhsIdx_val_of_single rfl j q
  r0 := fun j q => dot_S50000x256_S256x40_S50000x40_1_0_0_1_n_n.rhsIdx_val_of_single rfl j q
  r1 := fun j q => by
    unfold DotDims.rhsIdx
    rw [dif_neg (show ¬(1 : Fin S256x40.rank) ∈ dot_S50000x256_S256x40_S50000x40_1_0_0_1_n_n.rhsBatch by decide),
      dif_pos (show (1 : Fin S256x40.rank) ∈ dot_S50000x256_S256x40_S50000x40_1_0_0_1_n_n.rhsNonContracting by decide)]
    rfl

/-- The first layer's `X · W + b` as the reference computes it is the specification's affine map. -/
theorem dense1_eq (x : FVec Ideal S50000x512 .f32) (W : FVec Ideal S512x256 .f32) (b : FVec Ideal S256 .f32) :
    addf (F := Ideal) (Host.dotGeneral dot_S50000x512_S512x256_S50000x256_1_0_0_1_n_n none x W)
        (broadcastInDim S50000x256 ![0, 1] bcast_S1x256_S50000x256_0_1 (broadcastInDim S1x256 ![1] bcast_S256_S1x256_1 b))
      = affine (M := 50000) (K := 512) (N := 256) x W b := by
  funext i
  obtain ⟨r, c, rfl⟩ : ∃ (r : Fin 50000) (c : Fin 256), i = ix2 r c := ⟨i 0, i 1, eq_ix2 i⟩
  show FloatOps.dotGeneral (F := Ideal) dot_S50000x512_S512x256_S50000x256_1_0_0_1_n_n none .single x W (ix2 r c)
    + broadcastInDim S50000x256 ![0, 1] bcast_S1x256_S50000x256_0_1 (broadcastInDim S1x256 ![1] bcast_S256_S1x256_1 b) (ix2 r c) = _
  rw [Ideal.dotGeneral_apply, sum_contr_eq _ plain1 x W (ix2 r c),
    broadcastInDim_apply _ bcast_S1x256_S50000x256_0_1 _ (ix2 r c) (ix2 (0 : Fin 1) c) (fun a => by
      match a with
      | ⟨0, _⟩ => rfl
      | ⟨1, _⟩ => rfl),
    broadcastInDim_apply _ bcast_S256_S1x256_1 b (ix2 (0 : Fin 1) c) (ix1 c) (fun a => by
      match a with
      | ⟨0, _⟩ => rfl)]
  rfl

/-- The second layer's `H · W + b` as the reference computes it is the specification's affine map. -/
theorem dense2_eq (x : FVec Ideal S50000x256 .f32) (W : FVec Ideal S256x40 .f32) (b : FVec Ideal S40 .f32) :
    addf (F := Ideal) (Host.dotGeneral dot_S50000x256_S256x40_S50000x40_1_0_0_1_n_n none x W)
        (broadcastInDim S50000x40 ![0, 1] bcast_S1x40_S50000x40_0_1 (broadcastInDim S1x40 ![1] bcast_S40_S1x40_1 b))
      = affine (M := 50000) (K := 256) (N := 40) x W b := by
  funext i
  obtain ⟨r, c, rfl⟩ : ∃ (r : Fin 50000) (c : Fin 40), i = ix2 r c := ⟨i 0, i 1, eq_ix2 i⟩
  show FloatOps.dotGeneral (F := Ideal) dot_S50000x256_S256x40_S50000x40_1_0_0_1_n_n none .single x W (ix2 r c)
    + broadcastInDim S50000x40 ![0, 1] bcast_S1x40_S50000x40_0_1 (broadcastInDim S1x40 ![1] bcast_S40_S1x40_1 b) (ix2 r c) = _
  rw [Ideal.dotGeneral_apply, sum_contr_eq _ plain2 x W (ix2 r c),
    broadcastInDim_apply _ bcast_S1x40_S50000x40_0_1 _ (ix2 r c) (ix2 (0 : Fin 1) c) (fun a => by
      match a with
      | ⟨0, _⟩ => rfl
      | ⟨1, _⟩ => rfl),
    broadcastInDim_apply _ bcast_S40_S1x40_1 b (ix2 (0 : Fin 1) c) (ix1 c) (fun a => by
      match a with
      | ⟨0, _⟩ => rfl)]
  rfl

end Cert.ReferenceIdeal.Dense

end
-- ==== Proof.RRun.lean ====
/-
  The reference program's run, in five stages.

  The reference's @main is a line of 61 host operations: the first dense layer (4 operations), the neighbourhood sum
  and rectifier (19), the second dense layer (4), the second neighbourhood sum and rectifier (19) and the row-wise
  log-softmax (15). Run from any buffer contents, each stretch leaves in its result buffer the specification's function
  of the buffers it reads and writes no argument buffer; chaining the five, every weakly fair execution of @main ends with
  the result buffer at the specification's `network` of the argument arrays, the arguments unchanged (`run`).
-/
import proofs.«157292_j9801115370057_1_alg».proof.Proof.RefRunP
import proofs.«157292_j9801115370057_1_alg».proof.Proof.RDense
import proofs.«157292_j9801115370057_1_alg».proof.Proof.LibTypedRefCast
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem
open Idealize.ShloMosaic.StableHlo Idealize.ShloMosaic.StableHlo.TRefCast Cert.Gcn
open Cert.ReferenceIdeal.ValueP (ops main_eq scopedRefs_eq scopedSems_eq ops_sub)

variable {F : FTy → Type} [FloatOps F]

/-- This program's witnesses of the side conditions the specification's operations take. -/
theorem agg1 : AggFacts 256 := ⟨bcast_S_S800000, bcast_S800000_S800000x1_0, bcast_S800000x1_S800000x256_0_1, bcast_S_S50000x256⟩
theorem agg2 : AggFacts 40 := ⟨bcast_S_S800000, bcast_S800000_S800000x1_0, bcast_S800000x1_S800000x40_0_1, bcast_S_S50000x40⟩
theorem lsm : LsmFacts := ⟨reducesTo_S50000x40_S50000_d1, h_S_, bcast_S_S50000, bcast_S50000_S50000x1_0, bcast_S50000x1_S50000x40_0_1⟩

/-- Running a line of operations that is two lines end to end is running the first, then the second. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The five stretches of @main. -/
abbrev st1 : List (HloOp τ sig (Elt F)) := ops.take 4
abbrev st2 : List (HloOp τ sig (Elt F)) := (ops.drop 4).take 19
abbrev st3 : List (HloOp τ sig (Elt F)) := (ops.drop 23).take 4
abbrev st4 : List (HloOp τ sig (Elt F)) := (ops.drop 27).take 19
abbrev st5 : List (HloOp τ sig (Elt F)) := ops.drop 46

theorem ops_split : (ops : List (HloOp τ sig (Elt F))) = st1 ++ (st2 ++ (st3 ++ (st4 ++ st5))) := rfl

/-- The first stretch: the first dense layer of what it finds in the argument buffers. -/
theorem stage1 (V : Valuation τ sig (Elt F)) :
    after st1 V (Proc.devRef .tc main_v3)
      = addf (Host.dotGeneral dot_S50000x512_S512x256_S50000x256_1_0_0_1_n_n none (V (Proc.devRef .tc main_arg0)) (V (Proc.devRef .tc main_arg4)))
          (broadcastInDim S50000x256 ![0, 1] bcast_S1x256_S50000x256_0_1 (broadcastInDim S1x256 ![1] bcast_S256_S1x256_1 (V (Proc.devRef .tc main_arg5)))) := by
  simp only [st1, ops, List.take_succ_cons, List.take_zero, List.drop_succ_cons, List.drop_zero]
  after_results

/-- The second stretch: the neighbourhood sum of the first dense layer's result, rectified. -/
theorem stage2 (V : Valuation τ sig (Elt F)) :
    after st2 V (Proc.devRef .tc main_v17)
      = aggregate (F := F) agg1 gather_S50000x256_S800000x1_S800000x256_1_0_n_n_0_1_1256 scatter_S50000x256_S800000x1_S800000x256_1_0_0_1
          (V (Proc.devRef .tc main_v3)) (V (Proc.devRef .tc main_arg1)) (V (Proc.devRef .tc main_arg2)) (V (Proc.devRef .tc main_arg3)) := by
  simp only [st2, ops, List.take_succ_cons, List.take_zero, List.drop_succ_cons, List.drop_zero]
  after_results
  simp only [ofBuf_toBuf]
  rfl

/-- The third stretch: the second dense layer of the rectifier's result. -/
theorem stage3 (V : Valuation τ sig (Elt F)) :
    after st3 V (Proc.devRef .tc main_v21)
      = addf (Host.dotGeneral dot_S50000x256_S256x40_S50000x40_1_0_0_1_n_n none (V (Proc.devRef .tc main_v17)) (V (Proc.devRef .tc main_arg6)))
          (broadcastInDim S50000x40 ![0, 1] bcast_S1x40_S50000x40_0_1 (broadcastInDim S1x40 ![1] bcast_S40_S1x40_1 (V (Proc.devRef .tc main_arg7)))) := by
  simp only [st3, ops, List.take_succ_cons, List.take_zero, List.drop_succ_cons, List.drop_zero]
  after_results

set_option maxHeartbeats 2000000 in
/-- The fourth stretch: the neighbourhood sum of the second dense layer's result, rectified. -/
theorem stage4 (V : Valuation τ sig (Elt F)) :
    after st4 V (Proc.devRef .tc main_v35)
      = aggregate (F := F) agg2 gather_S50000x40_S800000x1_S800000x40_1_0_n_n_0_1_140 scatter_S50000x40_S800000x1_S800000x40_1_0_0_1
          (V (Proc.devRef .tc main_v21)) (V (Proc.devRef .tc main_arg1)) (V (Proc.devRef .tc main_arg2)) (V (Proc.devRef .tc main_arg3)) := by
  simp only [st4, ops, List.take_succ_cons, List.take_zero, List.drop_succ_cons, List.drop_zero]
  after_results
  simp only [ofBuf_toBuf]
  rfl

set_option maxHeartbeats 2000000 in
/-- The last stretch: the row-wise log-softmax of the second rectifier's result. -/
theorem stage5 (V : Valuation τ sig (Elt F)) :
    after st5 V (Proc.devRef .tc main_v36) = logSoftmaxRows (F := F) lsm (V (Proc.devRef .tc main_v35)) := by
  simp only [st5, ops, List.take_succ_cons, List.take_zero, List.drop_succ_cons, List.drop_zero]
  after_results
  simp only [ofBuf_toBuf]
  rfl

/-- No stretch before the last writes an argument buffer that a later stretch reads. -/
theorem kept_st1 (V : Valuation τ sig (Elt F)) :
    after st1 V (Proc.devRef .tc main_arg1) = V (Proc.devRef .tc main_arg1)
    ∧ after st1 V (Proc.devRef .tc main_arg2) = V (Proc.devRef .tc main_arg2)
    ∧ after st1 V (Proc.devRef .tc main_arg3) = V (Proc.devRef .tc main_arg3)
    ∧ after st1 V (Proc.devRef .tc main_arg6) = V (Proc.devRef .tc main_arg6)
    ∧ after st1 V (Proc.devRef .tc main_arg7) = V (Proc.devRef .tc main_arg7) := by
  simp only [st1, ops, List.take_succ_cons, List.take_zero, List.drop_succ_cons, List.drop_zero]
  refine ⟨?_, ?_, ?_, ?_, ?_⟩ <;> after_results

theorem kept_st2 (V : Valuation τ sig (Elt F)) :
    after st2 V (Proc.devRef .tc main_arg1) = V (Proc.devRef .tc main_arg1)
    ∧ after st2 V (Proc.devRef .tc main_arg2) = V (Proc.devRef .tc main_arg2)
    ∧ after st2 V (Proc.devRef .tc main_arg3) = V (Proc.devRef .tc main_arg3)
    ∧ after st2 V (Proc.devRef .tc main_arg6) = V (Proc.devRef .tc main_arg6)
    ∧ after st2 V (Proc.devRef .tc main_arg7) = V (Proc.devRef .tc main_arg7) := by
  simp only [st2, ops, List.take_succ_cons, List.take_zero, List.drop_succ_cons, List.drop_zero]
  refine ⟨?_, ?_, ?_, ?_, ?_⟩ <;> after_results

theorem kept_st3 (V : Valuation τ sig (Elt F)) :
    after st3 V (Proc.devRef .tc main_arg1) = V (Proc.devRef .tc main_arg1)
    ∧ after st3 V (Proc.devRef .tc main_arg2) = V (Proc.devRef .tc main_arg2)
    ∧ after st3 V (Proc.devRef .tc main_arg3) = V (Proc.devRef .tc main_arg3) := by
  simp only [st3, ops, List.take_succ_cons, List.take_zero, List.drop_succ_cons, List.drop_zero]
  refine ⟨?_, ?_, ?_⟩ <;> after_results

section Read

variable (m : (ℓ : Loc nD τ sig) → Buf (Elt Ideal) ℓ) (ρ : Dev nD → PrngReg) (c : Dev nD)

/-- THE RESULT: the whole line, run from the launch contents, leaves the specification's network of the arguments in the
    result buffer. -/
theorem result_eq : after (ops (F := Ideal)) (launchContents m c) (Proc.devRef .tc main_v36)
    = network agg1 gather_S50000x256_S800000x1_S800000x256_1_0_n_n_0_1_1256 scatter_S50000x256_S800000x1_S800000x256_1_0_0_1 agg2 gather_S50000x40_S800000x1_S800000x40_1_0_n_n_0_1_140 scatter_S50000x40_S800000x1_S800000x40_1_0_0_1 lsm
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  rw [ops_split, after_append, after_append, after_append, after_append, stage5, stage4, stage3,
    (kept_st3 _).1, (kept_st3 _).2.1, (kept_st3 _).2.2, stage2,
    (kept_st2 _).1, (kept_st2 _).2.1, (kept_st2 _).2.2.1, (kept_st2 _).2.2.2.1, (kept_st2 _).2.2.2.2, stage1,
    (kept_st1 _).1, (kept_st1 _).2.1, (kept_st1 _).2.2.1, (kept_st1 _).2.2.2.1, (kept_st1 _).2.2.2.2,
    Dense.dense1_eq, Dense.dense2_eq]
  rfl

/-- Every weakly fair execution of the reference program ends with the result buffer at the specification's network of
    the launch contents of the arguments, and the arguments unchanged. -/
theorem run : θ_run defs (onTc (τ := τ) (main (F := Ideal))) ⟨m, fun _ => 0, ρ⟩ (fun r => ∀ c : Dev nD,
      r.2.mem ((c.tc : Thread nD τ).loc main_v36)
        = network agg1 gather_S50000x256_S800000x1_S800000x256_1_0_n_n_0_1_1256 scatter_S50000x256_S800000x1_S800000x256_1_0_0_1 agg2 gather_S50000x40_S800000x1_S800000x40_1_0_n_n_0_1_140 scatter_S50000x40_S800000x1_S800000x40_1_0_0_1 lsm
            (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v36).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Read

end Cert.ReferenceIdeal.Staged

end
-- ==== Proof.lean ====
/-
  A two-layer graph convolution network: the kernel program against its reference, at the extended reals.

  Both programs compute, for node features `X`, an edge list `(src, dst, w)` and weights `W1, b1, W2, b2`,
  the specification's `network`: `H = relu (A (X · W1 + b1))`, `Z = relu (A (H · W2 + b2))`, result `log_softmax Z` row by row,
  where `A` adds `w e` times row `src e` into row `dst e` for every edge `e`.

  The kernel program computes each dense map `· W + b` in a kernel region, 2000 rows per grid step, on bf16-rounded
  operands — no change at the extended reals — into a zero accumulator; the reference computes it by one whole-array
  product. Entry by entry both are `∑ k, X (r, k) · W (k, c) + b c`: the same finite sum of the same terms, so no entry
  needs to be finite. Everything else — the gather, the scaling, the scatter-add, the rectifier, the log-softmax — is
  the same sequence of operations in both programs and is carried along unopened.

  The kernel program's frames are the generated frame certificates; the reference's frame is its run with the result
  dropped; the idealization rewrote nothing, so `preserves` is trivial; `algebraic` sets the two runs side by side: both
  end at `network` of the (agreeing) arguments.
-/
import proofs.«157292_j9801115370057_1_alg».proof.Defs
import proofs.«157292_j9801115370057_1_alg».proof.Proof.Gen.Kernel
import proofs.«157292_j9801115370057_1_alg».proof.Proof.Gen.Kernel.Skeleton
import proofs.«157292_j9801115370057_1_alg».proof.Proof.Gen.Kernel.Launch
import proofs.«157292_j9801115370057_1_alg».proof.Proof.Gen.Kernel.Points
import proofs.«157292_j9801115370057_1_alg».proof.Proof.Gen.Kernel.Frame
import proofs.«157292_j9801115370057_1_alg».proof.Proof.Gen.KernelIdeal
import proofs.«157292_j9801115370057_1_alg».proof.Proof.Gen.KernelIdeal.Skeleton
import proofs.«157292_j9801115370057_1_alg».proof.Proof.Gen.KernelIdeal.Launch
import proofs.«157292_j9801115370057_1_alg».proof.Proof.Gen.KernelIdeal.Points
import proofs.«157292_j9801115370057_1_alg».proof.Proof.Gen.KernelIdeal.Frame
import proofs.«157292_j9801115370057_1_alg».proof.Proof.Gen.ReferenceIdeal
import proofs.«157292_j9801115370057_1_alg».proof.Proof.Gen.Pre_finite_inputs
import proofs.«157292_j9801115370057_1_alg».proof.Proof.KRun
import proofs.«157292_j9801115370057_1_alg».proof.Proof.RRun
import Idealize.ShloMosaic.Adequacy
import Idealize.ShloMosaic.Init

noncomputable section

namespace Cert.Proof

open Idealize.ShloMosaic Idealize.SL.Sem Cert.Gcn

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Staged.run m ρ)

/-- The idealization rewrote no operation. -/
theorem preserves : Cert.preserves_Kernel_KernelIdeal := trivial

/-- The two programs' gather and scatter dimension numbers are the same records. -/
theorem gather1_eq : Cert.ReferenceIdeal.gather_S50000x256_S800000x1_S800000x256_1_0_n_n_0_1_1256 = Cert.KernelIdeal.gather_S50000x256_S800000x1_S800000x256_1_0_n_n_0_1_1256 := rfl
theorem scatter1_eq : Cert.ReferenceIdeal.scatter_S50000x256_S800000x1_S800000x256_1_0_0_1 = Cert.KernelIdeal.scatter_S50000x256_S800000x1_S800000x256_1_0_0_1 := rfl
theorem gather2_eq : Cert.ReferenceIdeal.gather_S50000x40_S800000x1_S800000x40_1_0_n_n_0_1_140 = Cert.KernelIdeal.gather_S50000x40_S800000x1_S800000x40_1_0_n_n_0_1_140 := rfl
theorem scatter2_eq : Cert.ReferenceIdeal.scatter_S50000x40_S800000x1_S800000x40_1_0_0_1 = Cert.KernelIdeal.scatter_S50000x40_S800000x1_S800000x40_1_0_0_1 := rfl

/-- Both runs end at the specification's network of the arguments, which agree. -/
theorem algebraic : Cert.algebraic_KernelIdeal_ReferenceIdeal := by
  intro m ρ m' ρ' _ hagree
  refine ⟨_, Cert.KernelIdeal.Staged.run m ρ, ?_⟩
  refine (θ_run Cert.ReferenceIdeal.defs _ _).mono (fun _ h c => ⟨(h c).1.trans ?_, (h c).2⟩)
    (Cert.ReferenceIdeal.Staged.run m' ρ')
  obtain ⟨a0, a1, a2, a3, a4, a5, a6, a7⟩ := hagree c
  rw [a0, a1, a2, a3, a4, a5, a6, a7, gather1_eq, scatter1_eq, gather2_eq, scatter2_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
